-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x1 : Shape := ⟨3, ![4096, 4096, 1]⟩
abbrev S128x4096 : Shape := ⟨2, ![128, 4096]⟩
abbrev S_ : Shape := ⟨0, ![]⟩

class Facts : Prop where
  bcast_S_S4096x4096x1 : S_.BroadcastsInDim S4096x4096x1 (![] : Fin 0 → Fin S4096x4096x1.rank)
  reducesTo_S4096x4096x1_S_d0_1_2 : S4096x4096x1.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_arg4 : FVec F S128x4096 .f32) (main_arg5 : FVec F S128x4096 .f32) (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  let main_v24 : FVec F S128x4096 .f32 := Host.absf main_arg5
  let main_cst_8 : FVec F S_ .f32 := constant S_ .f32 0x7F800000#32
  let main_v25 : FVec F S128x4096 .f32 := broadcastInDim S128x4096 ![] bcast_S_S128x4096 main_cst_8
  let main_v26 : IVec S128x4096 1 := cmpf .olt main_v24 main_v25
  let main_c_9 : IVec S_ 1 := constantI S_ 1 1#1
  let main_v27 : IVec S_ 1 := (fun x v => Host.reduce IntOp.andi x v reducesTo_S128x4096_S_d0_1 h_S_) main_v26 main_c_9
  let main_v28 : IVec S_ 1 := andi main_v23 main_v27
  main_v28

def fn {F : FTy → Type} [FloatOps F] (main_arg0 : FVec F S4096x4096x1 .f32) (main_arg1 : FVec F S4096x4096x1 .f32) (main_arg2 : FVec F S4096x4096x1 .f32) (main_arg3 : FVec F S128x4096 .f32) (main_arg4 : FVec F S128x4096 .f32) (main_arg5 : FVec F S128x4096 .f32) : IVec S_ 1 :=
  let main_v0 : FVec F S4096x4096x1 .f32 := Host.absf main_arg0
  let main_cst : FVec F S_ .f32 := constant S_ .f32 0x7F800000#32
  let main_v1 : FVec F S4096x4096x1 .f32 := broadcastInDim S4096x4096x1 ![] bcast_S_S4096x4096x1 main_cst
  let main_v2 : IVec S4096x4096x1 1 := cmpf .olt main_v0 main_v1
  let main_c : IVec S_ 1 := constantI S_ 1 1#1
  let main_v3 : IVec S_ 1 := (fun x v => Host.reduce IntOp.andi x v reducesTo_S4096x4096x1_S_d0_1_2 h_S_) main_v2 main_c
  let main_v4 : FVec F S4096x4096x1 .f32 := Host.absf main_arg1
  let main_cst_0 : FVec F S_ .f32 := constant S_ .f32 0x7F800000#32
  let main_v5 : FVec F S4096x4096x1 .f32 := broadcastInDim S4096x4096x1 ![] bcast_S_S4096x4096x1 main_cst_0
  let main_v6 : IVec S4096x4096x1 1 := cmpf .olt main_v4 main_v5
  let main_c_1 : IVec S_ 1 := constantI S_ 1 1#1
  let main_v7 : IVec S_ 1 := (fun x v => Host.reduce IntOp.andi x v reducesTo_S4096x4096x1_S_d0_1_2 h_S_) main_v6 main_c_1
  let main_v8 : IVec S_ 1 := andi main_v3 main_v7
  let main_v9 : FVec F S4096x4096x1 .f32 := Host.absf main_arg2
  let main_cst_2 : FVec F S_ .f32 := constant S_ .f32 0x7F800000#32
  let main_v10 : FVec F S4096x4096x1 .f32 := broadcastInDim S4096x4096x1 ![] bcast_S_S4096x4096x1 main_cst_2
  let main_v11 : IVec S4096x4096x1 1 := cmpf .olt main_v9 main_v10
  let main_c_3 : IVec S_ 1 := constantI S_ 1 1#1
  let main_v12 : IVec S_ 1 := (fun x v => Host.reduce IntOp.andi x v reducesTo_S4096x4096x1_S_d0_1_2 h_S_) main_v11 main_c_3
  let main_v13 : IVec S_ 1 := andi main_v8 main_v12
  let main_v14 : FVec F S128x4096 .f32 := Host.absf main_arg3
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_arg4 main_arg5 main_v13 main_v16
-- ==== Kernel.lean ====
abbrev S4096x4096x1 : Shape := ⟨3, ![4096, 4096, 1]⟩
abbrev S128x4096 : Shape := ⟨2, ![128, 4096]⟩
abbrev S4096x4096 : Shape := ⟨2, ![4096, 4096]⟩
abbrev S1x1 : Shape := ⟨2, ![1, 1]⟩
abbrev S512x512 : Shape := ⟨2, ![512, 512]⟩
abbrev S128x512 : Shape := ⟨2, ![128, 512]⟩
abbrev S512 : Shape := ⟨1, ![512]⟩
abbrev S512x1 : Shape := ⟨2, ![512, 1]⟩
abbrev S1 : Shape := ⟨1, ![1]⟩
abbrev S_ : Shape := ⟨0, ![]⟩
abbrev S128 : Shape := ⟨1, ![128]⟩

abbrev nBuf : Space → Nat
  | .hbm => 39
  | .vmem => 9
  | .smem => 0
  | _ => 0

abbrev bufTy : (tb : Table) → Fin (tcTables nBuf tb) → BufTy
  | .hbm, ⟨0, _⟩ => ⟨S4096x4096x1, .f32⟩
  | .hbm, ⟨1, _⟩ => ⟨S4096x4096x1, .f32⟩
  | .hbm, ⟨2, _⟩ => ⟨S4096x4096x1, .f32⟩
  | .hbm, ⟨3, _⟩ => ⟨S128x4096, .f32⟩
  | .hbm, ⟨4, _⟩ => ⟨S128x4096, .f32⟩
  | .hbm, ⟨5, _⟩ => ⟨S128x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S1x1, .f32⟩
  | .hbm, ⟨10, _⟩ => ⟨S_, .f32⟩
  | .hbm, ⟨11, _⟩ => ⟨S128x4096, .f32⟩
  | .hbm, ⟨12, _⟩ => ⟨S128x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x4096, .f32⟩
  | .hbm, ⟨17, _⟩ => ⟨S128x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1, .f32⟩
  | _, _ => ⟨S4096x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_mult2 (i : grid0.Coords) : BitVec 32 :=
  let arg1 : BitVec 32 := BitVec.ofNat 32 (i 1).val
  let c512_i32_2 : BitVec 32 := 512#32
  let v7 : BitVec 32 := Scalar.muli arg1 c512_i32_2
  v7
def k0_off1 (i : grid0.Coords) : Fin 2 → Nat :=
  let c0 : Index := 0#32
  let arg0 : BitVec 32 := BitVec.ofNat 32 (i 0).val
  let c512_i32 : BitVec 32 := 512#32
  let v5 : BitVec 32 := Scalar.muli arg0 c512_i32
  let v6 : BitVec 32 := v5
  let v9 : Index := Scalar.indexCast v6
  ![0, v9.toNat]
def k0_off2 (i : grid0.Coords) : Fin 2 → Nat :=
  let c0_3 : Index := 0#32
  let arg1 : BitVec 32 := BitVec.ofNat 32 (i 1).val
  let c512_i32_2 : BitVec 32 := 512#32
  let v7 : BitVec 32 := Scalar.muli arg1 c512_i32_2
  let v8 : BitVec 32 := v7
  let v12 : Index := Scalar.indexCast v8
  ![0, v12.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S4096x4096x1_S4096x4096 : S4096x4096x1.ShapeCasts S4096x4096
  inb_S1x1_S1x1_0_0 : ∀ a, (![0, 0] : Fin 2 → Nat) a + S1x1.size a ≤ S1x1.size a
  h_S1x1 : 0 < S1x1.numel
  h_S128x512 : 0 < S128x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  reducesTo_S128x4096_S_d0_1 : S128x4096.ReducesTo [0, 1] S_
  h_S_ : 0 < S_.numel
  reducesTo_S128x4096_S128_d1 : S128x4096.ReducesTo [1] S128
  reducesTo_S128_S_d0 : S128.ReducesTo [0] S_
  dot_S128x512_S128x512_S512x512_0_0_1_1_n_n_wf : DotDims.WF S128x512 S128x512 S512x512 [0] [0] [1] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S128x512.size a ≤ S128x4096.size a
  k0_off2_inb : ∀ i : grid0.Coords, ∀ a, (k0_off2 i) a + S128x512.size a ≤ S128x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S128x512_S128x512_S512x512_0_0_1_1_n_n : DotDims S128x512 S128x512 S512x512 where
  lhsContracting := [0]
  rhsContracting := [0]
  lhsNonContracting := [1]
  rhsNonContracting := [1]
  lhsBatch := []
  rhsBatch := []
  wf := dot_S128x512_S128x512_S512x512_0_0_1_1_n_n_wf

abbrev win0_0 : Pipeline.Window sig grid0 :=
  Pipeline.Window.ofSpec (Memref.whole main_arg3) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096x1 : Shape := ⟨3, ![4096, 4096, 1]⟩
abbrev S128x4096 : Shape := ⟨2, ![128, 4096]⟩
abbrev S4096x4096 : Shape := ⟨2, ![4096, 4096]⟩
abbrev S_ : Shape := ⟨0, ![]⟩
abbrev S128 : Shape := ⟨1, ![128]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096x1, .f32⟩
  | .hbm, ⟨1, _⟩ => ⟨S4096x4096x1, .f32⟩
  | .hbm, ⟨2, _⟩ => ⟨S4096x4096x1, .f32⟩
  | .hbm, ⟨3, _⟩ => ⟨S128x4096, .f32⟩
  | .hbm, ⟨4, _⟩ => ⟨S128x4096, .f32⟩
  | .hbm, ⟨5, _⟩ => ⟨S128x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S128x4096, .f32⟩
  | .hbm, ⟨53, _⟩ => ⟨S128x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S128x4096, .f32⟩
  | .hbm, ⟨58, _⟩ => ⟨S128x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096x1_S4096x4096 : S4096x4096x1.ShapeCasts S4096x4096
  reducesTo_S4096x4096_S_d0_1 : S4096x4096.ReducesTo [0, 1] S_
  h_S_ : 0 < S_.numel
  reducesTo_S128x4096_S_d0_1 : S128x4096.ReducesTo [0, 1] S_
  reducesTo_S128x4096_S128_d1 : S128x4096.ReducesTo [1] S128
  reducesTo_S128_S_d0 : S128.ReducesTo [0] S_
  dot_S128x4096_S128x4096_S4096x4096_0_0_1_1_n_n_wf : DotDims.WF S128x4096 S128x4096 S4096x4096 [0] [0] [1] [1] [] []

variable [Facts₀]

def dot_S128x4096_S128x4096_S4096x4096_0_0_1_1_n_n : DotDims S128x4096 S128x4096 S4096x4096 where
  lhsContracting := [0]
  rhsContracting := [0]
  lhsNonContracting := [1]
  rhsNonContracting := [1]
  lhsBatch := []
  rhsBatch := []
  wf := dot_S128x4096_S128x4096_S4096x4096_0_0_1_1_n_n_wf

class Facts : Prop extends Facts₀ where

variable [Facts]
-- ==== Proof.CaseValue.lean ====
/-
  What one grid point leaves in the scalar accumulator block, as a value.

  At a grid point `(i, j)` the body reads, from the two resident feature matrices `P` and `M` (each 128 × 4096), the
  column slices `[512·i, 512·i + 512)` and `[512·j, 512·j + 512)`, and the three 512 × 512 blocks of the similarity
  matrices; it adds to the accumulator `acc` the block's contribution (`body`: the body's arithmetic, one pure term).
  At the first point the accumulator is first set to zero and read back, so the point leaves `body … 0`; at every
  other point it leaves `body … acc` of what the point before left.
-/
import proofs.«131492_j78125455114760_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CaseValue

open Cert.KernelIdeal Cert.KernelIdeal.Gen

variable {F : FTy → Type} [FloatOps F]

theorem hz : (![0, 0] : Fin 2 → Nat) = fun _ => 0 := funext fun a => by fin_cases a <;> rfl

/-- The 512 columns of a resident 128 × 4096 matrix that start at `512 · i₀` (the grid's first coordinate). -/
abbrev colsI (i : grid0.Coords) (x : Vec F S128x4096 .f32) : Vec F S128x512 .f32 :=
  View.ld x (Rect.unit (k0_off1 i) S128x512.size (k0_off1_inb i))
/-- The 512 columns that start at `512 · i₁` (the grid's second coordinate). -/
abbrev colsJ (i : grid0.Coords) (x : Vec F S128x4096 .f32) : Vec F S128x512 .f32 :=
  View.ld x (Rect.unit (k0_off2 i) S128x512.size (k0_off2_inb i))

/-- The body's arithmetic at point `i`: the accumulator `acc` plus the block's contribution, from the two resident
    matrices `x0`, `x1` and the three similarity blocks `x2`, `x3`, `x4`. -/
def body (i : grid0.Coords) (x0 x1 : Vec F S128x4096 .f32) (x2 x3 x4 : Vec F S512x512 .f32) (acc : Vec F S1x1 .f32) :
    Vec F S1x1 .f32 :=
  k0_pay10 (k0_pay4 (colsI i x0) (colsJ i x1)) (k0_pay5 (colsI i x0) (colsJ i x0)) (k0_pay6 (colsI i x1) (colsJ i x1))
    (k0_pay7 x2) (k0_pay8 x3) (k0_pay9 x4) acc

/-- Every point but the first: the accumulator block holding `xo` is left at `body … xo` (the body's one store
    covers the block; its loads read the whole staging buffers and the column slices). -/
theorem out_B (c : Dev nD) (i : grid0.Coords) (a2 : Memref sig .tc .vmem S128x4096 .f32) (h2 : a2.IsWhole)
    (a3 : Memref sig .tc .vmem S128x4096 .f32) (h3 : a3.IsWhole) (a4 : Memref sig .tc .vmem S512x512 .f32) (h4 : a4.IsWhole)
    (a5 : Memref sig .tc .vmem S512x512 .f32) (h5 : a5.IsWhole) (a6 : Memref sig .tc .vmem S512x512 .f32) (h6 : a6.IsWhole)
    (a7 : Memref sig .tc .vmem S1x1 .f32) (h7 : a7.IsWhole) (hc : ¬cond0_0 i)
    (x0 x1 : Vec F S128x4096 .f32) (x2 x3 x4 : Vec F S512x512 .f32) (xo : Vec F S1x1 .f32) :
    out0_B_5 c i a2 h2 a3 h3 a4 h4 a5 h5 a6 h6 a7 h7 hc x0 x1 x2 x3 x4 xo = body i x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero (S := S1x1) hz]
  simp only [View.readAt_eq_ld, h2.read_unread, h3.read_unread, h4.read_unread, h5.read_unread, h6.read_unread,
    h7.read_unread, View.ld_unit_zero (S := S512x512) hz, View.ld_unit_zero (S := S1x1) hz]
  rfl

/-- The first point: the block is set to zero, read back, and left at `body … 0`. -/
theorem out_A (c : Dev nD) (i : grid0.Coords) (a2 : Memref sig .tc .vmem S128x4096 .f32) (h2 : a2.IsWhole)
    (a3 : Memref sig .tc .vmem S128x4096 .f32) (h3 : a3.IsWhole) (a4 : Memref sig .tc .vmem S512x512 .f32) (h4 : a4.IsWhole)
    (a5 : Memref sig .tc .vmem S512x512 .f32) (h5 : a5.IsWhole) (a6 : Memref sig .tc .vmem S512x512 .f32) (h6 : a6.IsWhole)
    (a7 : Memref sig .tc .vmem S1x1 .f32) (h7 : a7.IsWhole) (hc : cond0_0 i)
    (x0 x1 : Vec F S128x4096 .f32) (x2 x3 x4 : Vec F S512x512 .f32) :
    out0_A_5 c i a2 h2 a3 h3 a4 h4 a5 h5 a6 h6 a7 h7 hc x0 x1 x2 x3 x4 = body i x0 x1 x2 x3 x4 k0_pay1 := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread,
    View.ld_unit_zero (S := S512x512) hz]
  rfl

end Cert.KernelIdeal.CaseValue

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.LossSpec.lean ====
/-
  The loss, entry by entry, on the extended reals.

  For two feature matrices `A`, `B` (each `n` rows; columns are items) `omega A B r c` is half the inner product of
  column `r` of `A` with column `c` of `B`. An entry of the first term is `-s · ω + log1p ω`, of the two others
  `-s · ω + log (1 + ω + ε)`, with `s` the similarity entry; `total` adds a matrix of entries up. One block's
  contribution and the whole loss have the same form: `total U + 1 · (total P + total M)`.
  The laws used are those of a commutative monoid and `1 · x = x`: they hold at the infinities too.
-/
import Idealize.ShloMosaic.PureOps.Ideal.Laws
import Idealize.ShloMosaic.Lib.ValueIdx
import proofs.«131492_j78125455114760_2_alg».proof.Proof.LibTileSum

noncomputable section

open scoped BigOperators

namespace Cert.Loss

open Idealize.ShloMosaic Idealize.ShloMosaic.ValueIdx

/-- The three float literals of both programs: 0.5, 1.0 and the epsilon inside the logarithm (its binary value). -/
abbrev half : EReal := Ideal.ofBits .f32 0x3F000000#32
abbrev one : EReal := Ideal.ofBits .f32 0x3F800000#32
abbrev eps : EReal := Ideal.ofBits .f32 0x322BCC77#32

/-- The literal 1.0 is the extended real 1. -/
theorem one_eq : one = 1 := IdealRules.sign_bit.ideal_onePat .f32

/-- Half the inner product of column `r` of `A` with column `c` of `B`. -/
def omega {n a b : ℕ} (A : (⟨2, ![n, a]⟩ : Shape).Idx → EReal) (B : (⟨2, ![n, b]⟩ : Shape).Idx → EReal)
    (r : Fin a) (c : Fin b) : EReal :=
  (∑ k : Fin n, A (ix2 k r) * B (ix2 k c)) * half

/-- An entry of the first term. -/
def entU (s w : EReal) : EReal := -s * w + Ideal.log1p w
/-- An entry of the second and third terms. -/
def entA (s w : EReal) : EReal := -s * w + Ideal.log (one + w + eps)

/-- All entries of a matrix added up. -/
def total {a b : ℕ} (f : Fin a → Fin b → EReal) : EReal := ∑ r, ∑ c, f r c

/-- The matrix cut into tiles: the total is the sum over the tiles of each tile's total. -/
theorem total_tiles {R C A a B b : ℕ} (hR : A * a = R) (hC : B * b = C) (f : Fin R → Fin C → EReal) :
    total f = ∑ i : Fin A, ∑ j : Fin B, total fun p q => f (TileSum.idx hR i p) (TileSum.idx hC j q) :=
  TileSum.sum_matrix hR hC f

/-- A family of contributions `u t + 1 · (p t + m t)`, added up, is the same form of the three sums; the
    reference starts each of its sums from a zero. -/
theorem sum_contributions {T : Type} [Fintype T] (u p m : T → EReal) :
    ∑ t, (u t + one * (p t + m t)) = (0 + ∑ t, u t) + one * ((0 + ∑ t, p t) + (0 + ∑ t, m t)) := by
  simp only [one_eq, one_mul, zero_add, Finset.sum_add_distrib]

/-! ## The loss over the argument arrays -/

/-- An item axis of 4096 cut into 8 stretches of 512. -/
theorem tile8 : 8 * 512 = 4096 := by decide

/-- The first term's entry at `(r, c)`: the similarity `x0[r, c, 0]` against the two feature matrices. -/
def EU (x0 : (⟨3, ![4096, 4096, 1]⟩ : Shape).Idx → EReal) (x3 x4 : (⟨2, ![128, 4096]⟩ : Shape).Idx → EReal)
    (r c : Fin 4096) : EReal :=
  entU (x0 (ix3 r c 0)) (omega x3 x4 r c)
/-- The second and third terms' entry at `(r, c)`: the similarity against one feature matrix with itself. -/
def EA (x1 : (⟨3, ![4096, 4096, 1]⟩ : Shape).Idx → EReal) (x3 : (⟨2, ![128, 4096]⟩ : Shape).Idx → EReal)
    (r c : Fin 4096) : EReal :=
  entA (x1 (ix3 r c 0)) (omega x3 x3 r c)

/-- What tile `(i, j)` of the 8 × 8 tiling contributes. -/
def contrib (x0 x1 x2 : (⟨3, ![4096, 4096, 1]⟩ : Shape).Idx → EReal) (x3 x4 : (⟨2, ![128, 4096]⟩ : Shape).Idx → EReal)
    (i j : Fin 8) : EReal :=
  total (fun p q => EU x0 x3 x4 (TileSum.idx tile8 i p) (TileSum.idx tile8 j q))
    + one * (total (fun p q => EA x1 x3 (TileSum.idx tile8 i p) (TileSum.idx tile8 j q))
      + total (fun p q => EA x2 x4 (TileSum.idx tile8 i p) (TileSum.idx tile8 j q)))

/-- The three sums of the loss as the reference forms them, each from a zero. -/
def lossSum (x0 x1 x2 : (⟨3, ![4096, 4096, 1]⟩ : Shape).Idx → EReal) (x3 x4 : (⟨2, ![128, 4096]⟩ : Shape).Idx → EReal) : EReal :=
  (0 + total (EU x0 x3 x4)) + one * ((0 + total (EA x1 x3)) + (0 + total (EA x2 x4)))

/-- The 64 tiles' contributions add up to the reference's three sums. -/
theorem sum_contrib (x0 x1 x2 : (⟨3, ![4096, 4096, 1]⟩ : Shape).Idx → EReal) (x3 x4 : (⟨2, ![128, 4096]⟩ : Shape).Idx → EReal) :
    ∑ i : Fin 8, ∑ j : Fin 8, contrib x0 x1 x2 x3 x4 i j = lossSum x0 x1 x2 x3 x4 := by
  unfold lossSum
  rw [total_tiles tile8 tile8 (EU x0 x3 x4), total_tiles tile8 tile8 (EA x1 x3), total_tiles tile8 tile8 (EA x2 x4)]
  rw [← Fintype.sum_prod_type', ← Fintype.sum_prod_type', ← Fintype.sum_prod_type', ← Fintype.sum_prod_type']
  exact sum_contributions _ _ _

end Cert.Loss

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.LibSumContr.lean ====
/-
  A sum over the contraction index of a matrix product that contracts ONE axis, re-indexed by that axis's coordinate.

  A `tpu.matmul` or a host `dot_general` at the ideal values, read at an output index `j`, is a sum over the
  product's contraction index `q` of `l (lhsIdx j q) * r (rhsIdx j q)`. When one axis is contracted, `q` is just a
  coordinate `k : Fin n`; if at coordinate `k` the two operand indices are `L k` and `R k`, the sum is
  `Σ_k l (L k) * r (R k)` (any dimension numbers, any shapes, values in any commutative additive monoid with a product).
-/
import Idealize.ShloMosaic.Lib.ValueIdx

namespace Cert.LibSumContr

open Idealize.ShloMosaic Idealize.ShloMosaic.ValueIdx

/-- The sum over a one-axis contraction index is the sum over that axis's coordinate of the products of the two
    operands at the indices the coordinate selects. -/
theorem sum_contr {M : Type*} [AddCommMonoid M] [Mul M] {sl sr so : Shape} (D : DotDims sl sr so) (n : ℕ)
    (hr : D.contr.rank = 1) (hs : D.contr.size ⟨0, by omega⟩ = n) (l : sl.Idx → M) (r : sr.Idx → M) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hL k, hR k]

end Cert.LibSumContr
-- ==== Proof.TileValue.lean ====
/-
  The body's arithmetic read at the ideal values.

  `sum_to_11`: the body adds a 512 × 512 block up in two steps — along each row, keeping a column, then down
  that column — and the result, read at the one index of the 1 × 1 block, is the double sum of the block's entries.
  `gram_apply`: the MXU product of two 128 × 512 column slices contracted over their 128 rows, into a zero
  accumulator, read at `(p, q)`, is the inner product of column `p` of the first with column `q` of the second.
  `pay10_apply`: so the body leaves the accumulator plus the block's contribution — the total of the first term's
  entries plus 1 · (the totals of the second and third terms' entries); `0 - s` is `-s` on every extended real.
-/
import proofs.«131492_j78125455114760_2_alg».proof.Proof.Gen.KernelIdeal.Skeleton
import proofs.«131492_j78125455114760_2_alg».proof.Proof.LossSpec
import proofs.«131492_j78125455114760_2_alg».proof.Proof.LibKeepdims
import proofs.«131492_j78125455114760_2_alg».proof.Proof.LibAxisSums
import proofs.«131492_j78125455114760_2_alg».proof.Proof.LibSumContr
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.Loss

/-- A 512 × 512 block added up along its rows (keeping a column) and then down the column, read at the one index of
    the 1 × 1 result, is the double sum of its entries. -/
theorem sum_to_11 (v : FVec Ideal S512x512 .f32) (h1 : S512x512.Reduces [1] S512) (c1 : S512.ShapeCasts S512x1)
    (h0 : S512x1.Reduces [0] S1) (c0 : S1.ShapeCasts S1x1) (hφ : FKind.Formats .f32)
    (hacc : (0x00000000#32 : BitVec 32) = 0x00000000#32) (j : S1x1.Idx) :
    shapeCast S1x1 (multiReduction (F := Ideal) .add [0] S1
        (shapeCast S512x1 (multiReduction (F := Ideal) .add [1] S512 v 0x00000000#32 h1 hφ hacc) c1)
        0x00000000#32 h0 hφ hacc) c0 j
      = ∑ p : Fin 512, ∑ q : Fin 512, v (ix2 p q) := by
  obtain ⟨a, b, rfl⟩ : ∃ (a : Fin 1) (b : Fin 1), j = ix2 a b := ⟨j 0, j 1, eq_ix2 j⟩
  refine (Cert.LibKeepdims.shapeCast_a_a1_apply _ c0 a b).trans ?_
  refine (Cert.LibAxisSums.multiReduction_add_firstAxis_apply _ _ h0 hφ hacc a).trans ?_
  refine Finset.sum_congr rfl fun p _ => ?_
  refine (Cert.LibKeepdims.shapeCast_a_a1_apply _ c1 p a).trans ?_
  exact Cert.LibKeepdims.multiReduction_add_lastAxis_apply v _ h1 hφ hacc p

/-- On the extended reals `0 - s` is `-s`, so an entry of the first term as the body spells it is `entU`, -/
theorem entU_entry (s w : FVec Ideal S512x512 .f32) (i : S512x512.Idx) :
    addf (mulf (subf (broadcast S512x512 (FloatOps.ofBits (F := Ideal) .f32 0x00000000#32)) s) w) (log1p w) i
      = entU (s i) (w i) := by
  show (Ideal.ofBits .f32 0x00000000#32 - s i) * w i + Ideal.log1p (w i) = -s i * w i + Ideal.log1p (w i)
  rw [Ideal.ofBits_zero_f32, zero_sub]

/-- and an entry of the second or third term is `entA`. -/
theorem entA_entry (s w : FVec Ideal S512x512 .f32) (i : S512x512.Idx) :
    addf (mulf (subf (broadcast S512x512 (FloatOps.ofBits (F := Ideal) .f32 0x00000000#32)) s) w)
        (log (addf (addf (broadcast S512x512 (FloatOps.ofBits (F := Ideal) .f32 0x3F800000#32)) w)
          (broadcast S512x512 (FloatOps.ofBits (F := Ideal) .f32 0x322BCC77#32)))) i
      = entA (s i) (w i) := by
  show (Ideal.ofBits .f32 0x00000000#32 - s i) * w i + Ideal.log (one + w i + eps) = -s i * w i + Ideal.log (one + w i + eps)
  rw [Ideal.ofBits_zero_f32, zero_sub]

/-- The body's arithmetic: the accumulator plus the block's contribution. -/
theorem pay10_apply (w23 w26 w29 s31 s33 s35 : FVec Ideal S512x512 .f32) (acc : Vec Ideal S1x1 .f32) (j : S1x1.Idx) :
    k0_pay10 (F := Ideal) w23 w26 w29 s31 s33 s35 acc j
      = acc j + (total (fun p q => entU (s31 (ix2 p q)) (w23 (ix2 p q)))
          + one * (total (fun p q => entA (s33 (ix2 p q)) (w26 (ix2 p q)))
            + total (fun p q => entA (s35 (ix2 p q)) (w29 (ix2 p q))))) := by
  unfold k0_pay10
  dsimp only
  simp only [addf_apply, mulf_apply, broadcast_apply, shapeCast_self]
  refine congrArg (acc j + ·) (congrArg₂ (· + ·) ?_ (congrArg (_ * ·) (congrArg₂ (· + ·) ?_ ?_)))
  · exact (sum_to_11 _ _ _ _ _ _ _ j).trans
      (Finset.sum_congr rfl fun p _ => Finset.sum_congr rfl fun q _ => entU_entry s31 w23 (ix2 p q))
  · exact (sum_to_11 _ _ _ _ _ _ _ j).trans
      (Finset.sum_congr rfl fun p _ => Finset.sum_congr rfl fun q _ => entA_entry s33 w26 (ix2 p q))
  · exact (sum_to_11 _ _ _ _ _ _ _ j).trans
      (Finset.sum_congr rfl fun p _ => Finset.sum_congr rfl fun q _ => entA_entry s35 w29 (ix2 p q))

/-- The MXU product of two 128 × 512 slices contracted over their rows, into a zero accumulator, read at `(p, q)`:
    the inner product of column `p` of the first with column `q` of the second. -/
theorem gram_apply (a b : FVec Ideal S128x512 .bf16) (p q : Fin 512) :
    matmul (F := Ideal) dot_S128x512_S128x512_S512x512_0_0_1_1_n_n none a b (constant (F := Ideal) S512x512 .f32 0x00000000#32) (ix2 p q)
      = ∑ k : Fin 128, a (ix2 k p) * b (ix2 k q) := by
  refine (Ideal.matmul_constant_zero_apply dot_S128x512_S128x512_S512x512_0_0_1_1_n_n none a b (ix2 p q)).trans ?_
  refine Cert.LibSumContr.sum_contr dot_S128x512_S128x512_S512x512_0_0_1_1_n_n 128 rfl rfl a b (ix2 p q)
    (fun k => ix2 k p) (fun k => ix2 k q) (fun k => ?_) (fun k => ?_)
  · have hk := contrEquiv1_symm_val dot_S128x512_S128x512_S512x512_0_0_1_1_n_n 128 rfl rfl k
    funext ax; apply Fin.ext
    match ax with
    | ⟨0, _⟩ => exact (dot_S128x512_S128x512_S512x512_0_0_1_1_n_n.lhsIdx_val_of_single rfl (ix2 p q) _).trans hk
    | ⟨1, _⟩ =>
      show (dot_S128x512_S128x512_S512x512_0_0_1_1_n_n.lhsIdx (ix2 p q) _ 1).val = p.val
      unfold DotDims.lhsIdx
      rw [dif_neg (show ¬(1 : Fin S128x512.rank) ∈ dot_S128x512_S128x512_S512x512_0_0_1_1_n_n.lhsBatch by decide),
        dif_pos (show (1 : Fin S128x512.rank) ∈ dot_S128x512_S128x512_S512x512_0_0_1_1_n_n.lhsNonContracting by decide)]
      rfl
  · have hk := contrEquiv1_symm_val dot_S128x512_S128x512_S512x512_0_0_1_1_n_n 128 rfl rfl k
    funext ax; apply Fin.ext
    match ax with
    | ⟨0, _⟩ => exact (dot_S128x512_S128x512_S512x512_0_0_1_1_n_n.rhsIdx_val_of_single rfl (ix2 p q) _).trans hk
    | ⟨1, _⟩ =>
      show (dot_S128x512_S128x512_S512x512_0_0_1_1_n_n.rhsIdx (ix2 p q) _ 1).val = q.val
      unfold DotDims.rhsIdx
      rw [dif_neg (show ¬(1 : Fin S128x512.rank) ∈ dot_S128x512_S128x512_S512x512_0_0_1_1_n_n.rhsBatch by decide),
        dif_pos (show (1 : Fin S128x512.rank) ∈ dot_S128x512_S128x512_S512x512_0_0_1_1_n_n.rhsNonContracting by decide)]
      rfl

/-- The three half inner products the body forms (a change of float format is the identity at the ideal values). -/
theorem pay4_apply (x y : Vec Ideal S128x512 .f32) (p q : Fin 512) : k0_pay4 (F := Ideal) x y (ix2 p q) = omega x y p q := by
  unfold k0_pay4 k0_pay2 k0_pay3
  dsimp only
  refine (mulf_apply _ _ _).trans ?_
  refine congrArg₂ (· * ·) (gram_apply _ _ p q) rfl
theorem pay5_apply (x y : Vec Ideal S128x512 .f32) (p q : Fin 512) : k0_pay5 (F := Ideal) x y (ix2 p q) = omega x y p q := by
  unfold k0_pay5 k0_pay2
  dsimp only
  refine (mulf_apply _ _ _).trans ?_
  refine congrArg₂ (· * ·) (gram_apply _ _ p q) rfl
theorem pay6_apply (x y : Vec Ideal S128x512 .f32) (p q : Fin 512) : k0_pay6 (F := Ideal) x y (ix2 p q) = omega x y p q := by
  unfold k0_pay6 k0_pay3
  dsimp only
  refine (mulf_apply _ _ _).trans ?_
  refine congrArg₂ (· * ·) (gram_apply _ _ p q) rfl

/-- The similarity blocks pass through a cast to their own shape. -/
theorem pay7_eq (x : Vec Ideal S512x512 .f32) : k0_pay7 (F := Ideal) x = x := shapeCast_self x _
theorem pay8_eq (x : Vec Ideal S512x512 .f32) : k0_pay8 (F := Ideal) x = x := shapeCast_self x _
theorem pay9_eq (x : Vec Ideal S512x512 .f32) : k0_pay9 (F := Ideal) x = x := shapeCast_self x _

end Cert.KernelIdeal.TileValue

end
-- ==== Proof.Blocks.lean ====
/-
  The blocks the body reads at a grid point, as entries of the argument arrays, and so what the point adds.

  Point `t` of the 8 × 8 grid is tile `(t / 8, t % 8)`. The two feature matrices are resident whole; the body takes
  from them the columns `512·(t/8) + p` and `512·(t%8) + q`. Each similarity matrix reaches the region reshaped from
  [4096, 4096, 1] to [4096, 4096], and its block at `t` holds, at `(p, q)`, the argument's entry
  `(512·(t/8) + p, 512·(t%8) + q, 0)`. Hence the body at `t` leaves the accumulator plus `contrib … (t/8) (t%8)`.
-/
import proofs.«131492_j78125455114760_2_alg».proof.Proof.Gen.KernelIdeal.Frame
import proofs.«131492_j78125455114760_2_alg».proof.Proof.CaseValue
import proofs.«131492_j78125455114760_2_alg».proof.Proof.TileValue
import proofs.«131492_j78125455114760_2_alg».proof.Proof.LossSpec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Loss Cert.KernelIdeal.CaseValue

variable (m : (ℓ : Loc nD τ sig) → Buf (Elt Ideal) ℓ)

/-! ## The grid and the windows' index maps, decided once over the 64 points -/

theorem coords_eq : ∀ t : Fin grid0.N, (grid0.coords t 0).val = t.val / 8 ∧ (grid0.coords t 1).val = t.val % 8 := by
  decide +kernel
theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val / 8 ∧ win0_2.index t 1 = t.val % 8 := by decide +kernel
theorem index3 : ∀ t : Fin grid0.N, win0_3.index t 0 = t.val / 8 ∧ win0_3.index t 1 = t.val % 8 := by decide +kernel
theorem index4 : ∀ t : Fin grid0.N, win0_4.index t 0 = t.val / 8 ∧ win0_4.index t 1 = t.val % 8 := by decide +kernel

/-- The tile row and tile column of point `t`. -/
def row (t : Fin cfg0.N) : Fin 8 := ⟨t.val / 8, by have h := t.isLt; have hN : cfg0.N = 64 := N_0; omega⟩
def col (t : Fin cfg0.N) : Fin 8 := ⟨t.val % 8, Nat.mod_lt _ (by decide)⟩

/-! ## The arrays as the region finds them -/

/-- The three similarity matrices reach the region reshaped to [4096, 4096]. -/
theorem V_v0 (c : Dev nD) : (V m c main_v0 : S4096x4096.Idx → EReal)
    = shapeCast S4096x4096 (m ((c : Thread nD τ).loc main_arg0)) shapeCasts_S4096x4096x1_S4096x4096 := by
  show StableHlo.after hostOps0 (fun b => m (c, b)) (Proc.devRef .tc main_v0) = _
  after_results
  rfl
theorem V_v1 (c : Dev nD) : (V m c main_v1 : S4096x4096.Idx → EReal)
    = shapeCast S4096x4096 (m ((c : Thread nD τ).loc main_arg1)) shapeCasts_S4096x4096x1_S4096x4096 := by
  show StableHlo.after hostOps0 (fun b => m (c, b)) (Proc.devRef .tc main_v1) = _
  after_results
  rfl
theorem V_v2 (c : Dev nD) : (V m c main_v2 : S4096x4096.Idx → EReal)
    = shapeCast S4096x4096 (m ((c : Thread nD τ).loc main_arg2)) shapeCasts_S4096x4096x1_S4096x4096 := by
  show StableHlo.after hostOps0 (fun b => m (c, b)) (Proc.devRef .tc main_v2) = _
  after_results
  rfl

/-- The reshape drops the unit axis: entry `(r, c)` is the argument's entry `(r, c, 0)`. -/
theorem reshape_apply (x : S4096x4096x1.Idx → EReal) (h : S4096x4096x1.ShapeCasts S4096x4096) (r c : Fin 4096) :
    shapeCast S4096x4096 x h (ix2 r c) = x (ix3 r c 0) :=
  shapeCast_apply x h _ _ (by
    rw [Shape.rowMajor_val_three, Shape.rowMajor_val_two]
    show (r.val * 4096 + c.val) * 1 + 0 = r.val * 4096 + c.val
    omega)

/-! ## The blocks at a point -/

/-- The resident feature matrices: the block is the whole array. -/
theorem iblk0_eq (c : Dev nD) (t : Fin cfg0.N) :
    (iblk m c 0 t : Vec Ideal S128x4096 .f32) = m ((c : Thread nD τ).loc main_arg3) := by
  funext j
  unfold iblk
  rw [View.read_apply]
  show V m c main_arg3 _ = _
  rw [V_main_arg3]
  congr 1
  funext a
  apply Fin.ext
  match a with
  | ⟨0, _⟩ => show win0_0.index t 0 * 128 + 1 * (j 0).val = (j 0).val; rw [(index0 t).1]; omega
  | ⟨1, _⟩ => show win0_0.index t 1 * 4096 + 1 * (j 1).val = (j 1).val; rw [(index0 t).2]; omega
theorem iblk1_eq (c : Dev nD) (t : Fin cfg0.N) :
    (iblk m c 1 t : Vec Ideal S128x4096 .f32) = m ((c : Thread nD τ).loc main_arg4) := by
  funext j
  unfold iblk
  rw [View.read_apply]
  show V m c main_arg4 _ = _
  rw [V_main_arg4]
  congr 1
  funext a
  apply Fin.ext
  match a with
  | ⟨0, _⟩ => show win0_1.index t 0 * 128 + 1 * (j 0).val = (j 0).val; rw [(index1 t).1]; omega
  | ⟨1, _⟩ => show win0_1.index t 1 * 4096 + 1 * (j 1).val = (j 1).val; rw [(index1 t).2]; omega

/-- A similarity block at `(p, q)` is the argument's entry `(512·row + p, 512·col + q, 0)`. -/
theorem iblk2_apply (c : Dev nD) (t : Fin cfg0.N) (p q : Fin 512) :
    (iblk m c 2 t : Vec Ideal S512x512 .f32) (ix2 p q)
      = m ((c : Thread nD τ).loc main_arg0) (ix3 (TileSum.idx tile8 (row t) p) (TileSum.idx tile8 (col t) q) 0) := by
  refine Eq.trans ?_ ((congrFun (V_v0 m c) _).trans (reshape_apply _ _ _ _))
  unfold iblk
  rw [View.read_apply]
  show (V m c main_v0 : S4096x4096.Idx → EReal) _ = _
  congr 1
  funext a
  apply Fin.ext
  match a with
  | ⟨0, _⟩ => show win0_2.index t 0 * 512 + 1 * p.val = (row t).val * 512 + p.val; rw [(index2 t).1]; show _ = t.val / 8 * 512 + p.val; omega
  | ⟨1, _⟩ => show win0_2.index t 1 * 512 + 1 * q.val = (col t).val * 512 + q.val; rw [(index2 t).2]; show _ = t.val % 8 * 512 + q.val; omega
theorem iblk3_apply (c : Dev nD) (t : Fin cfg0.N) (p q : Fin 512) :
    (iblk m c 3 t : Vec Ideal S512x512 .f32) (ix2 p q)
      = m ((c : Thread nD τ).loc main_arg1) (ix3 (TileSum.idx tile8 (row t) p) (TileSum.idx tile8 (col t) q) 0) := by
  refine Eq.trans ?_ ((congrFun (V_v1 m c) _).trans (reshape_apply _ _ _ _))
  unfold iblk
  rw [View.read_apply]
  show (V m c main_v1 : S4096x4096.Idx → EReal) _ = _
  congr 1
  funext a
  apply Fin.ext
  match a with
  | ⟨0, _⟩ => show win0_3.index t 0 * 512 + 1 * p.val = (row t).val * 512 + p.val; rw [(index3 t).1]; show _ = t.val / 8 * 512 + p.val; omega
  | ⟨1, _⟩ => show win0_3.index t 1 * 512 + 1 * q.val = (col t).val * 512 + q.val; rw [(index3 t).2]; show _ = t.val % 8 * 512 + q.val; omega
theorem iblk4_apply (c : Dev nD) (t : Fin cfg0.N) (p q : Fin 512) :
    (iblk m c 4 t : Vec Ideal S512x512 .f32) (ix2 p q)
      = m ((c : Thread nD τ).loc main_arg2) (ix3 (TileSum.idx tile8 (row t) p) (TileSum.idx tile8 (col t) q) 0) := by
  refine Eq.trans ?_ ((congrFun (V_v2 m c) _).trans (reshape_apply _ _ _ _))
  unfold iblk
  rw [View.read_apply]
  show (V m c main_v2 : S4096x4096.Idx → EReal) _ = _
  congr 1
  funext a
  apply Fin.ext
  match a with
  | ⟨0, _⟩ => show win0_4.index t 0 * 512 + 1 * p.val = (row t).val * 512 + p.val; rw [(index4 t).1]; show _ = t.val / 8 * 512 + p.val; omega
  | ⟨1, _⟩ => show win0_4.index t 1 * 512 + 1 * q.val = (col t).val * 512 + q.val; rw [(index4 t).2]; show _ = t.val % 8 * 512 + q.val; omega

/-! ## The column slices the body takes from a resident matrix -/

theorem colsI_apply (i : grid0.Coords) (i0 : Fin 8) (h0 : (i 0).val = i0.val) (X : Vec Ideal S128x4096 .f32)
    (k : Fin 128) (p : Fin 512) : colsI i X (ix2 k p) = X (ix2 k (TileSum.idx tile8 i0 p)) := by
  show X _ = X _
  congr 1
  funext a
  apply Fin.ext
  match a with
  | ⟨0, _⟩ => show (k0_off1 i) 0 + 1 * k.val = k.val; rw [k0_off1_eq]; show 0 + 1 * k.val = k.val; omega
  | ⟨1, _⟩ =>
    show (k0_off1 i) 1 + 1 * p.val = i0.val * 512 + p.val
    rw [k0_off1_eq]; show 512 * (i 0).val + 1 * p.val = _; rw [h0]; omega
theorem colsJ_apply (i : grid0.Coords) (i1 : Fin 8) (h1 : (i 1).val = i1.val) (X : Vec Ideal S128x4096 .f32)
    (k : Fin 128) (q : Fin 512) : colsJ i X (ix2 k q) = X (ix2 k (TileSum.idx tile8 i1 q)) := by
  show X _ = X _
  congr 1
  funext a
  apply Fin.ext
  match a with
  | ⟨0, _⟩ => show (k0_off2 i) 0 + 1 * k.val = k.val; rw [k0_off2_eq]; show 0 + 1 * k.val = k.val; omega
  | ⟨1, _⟩ =>
    show (k0_off2 i) 1 + 1 * q.val = i1.val * 512 + q.val
    rw [k0_off2_eq]; show 512 * (i 1).val + 1 * q.val = _; rw [h1]; omega

/-- So half the inner product of slice columns is that of the matrices' columns `512·i₀ + p` and `512·i₁ + q`. -/
theorem omega_cols (i : grid0.Coords) (i0 i1 : Fin 8) (h0 : (i 0).val = i0.val) (h1 : (i 1).val = i1.val)
    (X Y : Vec Ideal S128x4096 .f32) (p q : Fin 512) :
    omega (colsI i X) (colsJ i Y) p q = omega X Y (TileSum.idx tile8 i0 p) (TileSum.idx tile8 i1 q) := by
  unfold omega
  refine congrArg (· * half) (Finset.sum_congr rfl fun k _ => ?_)
  rw [colsI_apply i i0 h0 X k p, colsJ_apply i i1 h1 Y k q]

/-! ## What a point adds -/

/-- The body at point `i` = tile `(i₀, i₁)`, over variables: on the two matrices `x3`, `x4` and three blocks that
    hold the similarity arrays' entries of the tile, it leaves the accumulator plus the tile's contribution. -/
theorem body_apply (i : grid0.Coords) (i0 i1 : Fin 8) (h0 : (i 0).val = i0.val) (h1 : (i 1).val = i1.val)
    (X3 X4 : Vec Ideal S128x4096 .f32) (B2 B3 B4 : Vec Ideal S512x512 .f32) (acc : Vec Ideal S1x1 .f32) (j : S1x1.Idx)
    (x0 x1 x2 : S4096x4096x1.Idx → EReal)
    (hB2 : ∀ p q, B2 (ix2 p q) = x0 (ix3 (TileSum.idx tile8 i0 p) (TileSum.idx tile8 i1 q) 0))
    (hB3 : ∀ p q, B3 (ix2 p q) = x1 (ix3 (TileSum.idx tile8 i0 p) (TileSum.idx tile8 i1 q) 0))
    (hB4 : ∀ p q, B4 (ix2 p q) = x2 (ix3 (TileSum.idx tile8 i0 p) (TileSum.idx tile8 i1 q) 0)) :
    body (F := Ideal) i X3 X4 B2 B3 B4 acc j = acc j + contrib x0 x1 x2 X3 X4 i0 i1 := by
  unfold body
  refine (Cert.KernelIdeal.TileValue.pay10_apply _ _ _ _ _ _ acc j).trans ?_
  unfold contrib
  refine congrArg (acc j + ·) (congrArg₂ (· + ·) ?_ (congrArg (one * ·) (congrArg₂ (· + ·) ?_ ?_)))
  · refine Finset.sum_congr rfl fun p _ => Finset.sum_congr rfl fun q _ => ?_
    show entU (k0_pay7 B2 (ix2 p q)) (k0_pay4 (colsI i X3) (colsJ i X4) (ix2 p q)) = EU x0 X3 X4 _ _
    rw [Cert.KernelIdeal.TileValue.pay7_eq, Cert.KernelIdeal.TileValue.pay4_apply, hB2, omega_cols i i0 i1 h0 h1]
    rfl
  · refine Finset.sum_congr rfl fun p _ => Finset.sum_congr rfl fun q _ => ?_
    show entA (k0_pay8 B3 (ix2 p q)) (k0_pay5 (colsI i X3) (colsJ i X3) (ix2 p q)) = EA x1 X3 _ _
    rw [Cert.KernelIdeal.TileValue.pay8_eq, Cert.KernelIdeal.TileValue.pay5_apply, hB3, omega_cols i i0 i1 h0 h1]
    rfl
  · refine Finset.sum_congr rfl fun p _ => Finset.sum_congr rfl fun q _ => ?_
    show entA (k0_pay9 B4 (ix2 p q)) (k0_pay6 (colsI i X4) (colsJ i X4) (ix2 p q)) = EA x2 X4 _ _
    rw [Cert.KernelIdeal.TileValue.pay9_eq, Cert.KernelIdeal.TileValue.pay6_apply, hB4, omega_cols i i0 i1 h0 h1]
    rfl

/-- What point `t` adds, in terms of the argument arrays: the contribution of tile `(t / 8, t % 8)`. -/
def tileOf (c : Dev nD) (t : Fin cfg0.N) : EReal :=
  contrib (m ((c : Thread nD τ).loc main_arg0)) (m ((c : Thread nD τ).loc main_arg1)) (m ((c : Thread nD τ).loc main_arg2))
    (m ((c : Thread nD τ).loc main_arg3)) (m ((c : Thread nD τ).loc main_arg4)) (row t) (col t)

/-- The body at point `t`, on the blocks the pipeline gives it, leaves the accumulator plus `tileOf t`. -/
theorem point_value (c : Dev nD) (t : Fin cfg0.N) (acc : Vec Ideal S1x1 .f32) (j : S1x1.Idx) :
    body (F := Ideal) (grid0.coords t) (iblk m c 0 t) (iblk m c 1 t) (iblk m c 2 t) (iblk m c 3 t) (iblk m c 4 t) acc j
      = acc j + tileOf m c t := by
  refine (body_apply (grid0.coords t) (row t) (col t) (coords_eq t).1 (coords_eq t).2 (iblk m c 0 t) (iblk m c 1 t)
    (iblk m c 2 t) (iblk m c 3 t) (iblk m c 4 t) acc j _ _ _
    (iblk2_apply m c t) (iblk3_apply m c t) (iblk4_apply m c t)).trans ?_
  unfold tileOf
  rw [iblk0_eq m c t, iblk1_eq m c t]

end Cert.KernelIdeal.Blocks

end
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.Accumulated.lean ====
/-
  The accumulator block point by point, and the result block after the run.

  The first point leaves `0 + tile₀`; every later point adds its tile to what the point before left. So after point
  `n` the block holds the total of the tiles `0 … n` (induction on the point), and after the last of the 64 points the
  total of all tiles. The block is written back once, after the last point, and its one index covers the 1 × 1 array.
-/
import proofs.«131492_j78125455114760_2_alg».proof.Proof.Blocks
import proofs.«131492_j78125455114760_2_alg».proof.Proof.LibRunningTotal

set_option maxRecDepth 16384

noncomputable section

open scoped BigOperators
open Idealize.ShloMosaic Idealize.ShloMosaic.TcCoe Idealize.SL.Sem
open Idealize.ShloMosaic.Pipeline (Dat)

namespace Cert.KernelIdeal.Accumulated

open Cert.KernelIdeal Cert.KernelIdeal.Gen Idealize.ShloMosaic.ValueIdx Cert.Loss Cert.KernelIdeal.CaseValue
  Cert.KernelIdeal.Blocks

variable (m : (ℓ : Loc nD τ sig) → Buf (Elt Ideal) ℓ) (ρ : Dev nD → PrngReg)

/-- After point `n` the accumulator block holds, at its one index, the total of the tiles `0 … n`. -/
theorem outsAt_eq (c : Dev nD) : ∀ (n : ℕ) (h : n < cfg0.N) (j : S1x1.Idx),
    outsAt0 m c n h j = RunningTotal.upTo (tileOf m c) n
  | 0, h, j => by
    refine (congrFun ((outsAt0_A m c ⟨0, h⟩ rfl).trans (out_A ..)) j).trans ?_
    refine (point_value m c ⟨0, h⟩ _ j).trans ?_
    rw [RunningTotal.upTo_zero (tileOf m c) h]
    show Ideal.ofBits .f32 0x00000000#32 + _ = _
    rw [Ideal.ofBits_zero_f32, zero_add]
  | n + 1, h, j => by
    have hN : cfg0.N = 64 := N_0
    have hB : ¬(⟨n + 1, h⟩ : Fin cfg0.N).val % 64 = 0 := by dsimp only; omega
    refine (congrFun ((outsAt0_B m c ⟨n + 1, h⟩ hB).trans (out_B ..)) j).trans ?_
    refine (point_value m c ⟨n + 1, h⟩ _ j).trans ?_
    rw [RunningTotal.upTo_succ (tileOf m c) n h]
    show outsAt0 m c n _ j + _ = _
    rw [outsAt_eq c n _ j]

/-- The result block after the run: the total of all 64 tiles. -/
def result (c : Dev nD) : Buf (Elt Ideal) ((c : Thread nD τ).loc main_v3) :=
  (fun _ => ∑ t, tileOf m c t : S1x1.Idx → EReal)

/-- The last point. -/
abbrev t63 : Fin cfg0.N := ⟨63, by rw [show cfg0.N = 64 from N_0]; decide⟩

/-- The one write-back, after the last point, writes the total of all tiles. -/
theorem flushed_eq (c : Dev nD) (t : Fin cfg0.N) (hf : (cfg0.win 5).flush t = true) :
    (dats m 0 c).flushed 5 t = ((cfg0.win 5).blk t).view.read (Elt Ideal) (result m c) := by
  have hN : cfg0.N = 64 := N_0
  have h63 : t.val = 63 := by have := (flush0_5 t).mp hf; have := t.isLt; omega
  funext y
  show (dats m 0 c).after 5 t _ = _
  rw [after0_5, outsAt_eq m c t.val t.isLt, RunningTotal.upTo_last (tileOf m c) t.val (by omega)]
  rfl

/-- So the result array ends holding it. -/
theorem final (c : Dev nD) : (dats m 0 c).arrAt 5 cfg0.N = result m c :=
  (dats m 0 c).arrAt_eq_of_cover 5 (result m c) (flushed_eq m c) fun i =>
    ⟨t63, (flush0_5 t63).mpr rfl, by
      show i ∈ ((View.whole main_v3).slice (win0_5.rect t63)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t63 0 * win0_5.size 0 ≤ (i 0 : Nat)
          ∧ (i 0 : Nat) < win0_5.index t63 0 * win0_5.size 0 + win0_5.xsize (grid0.coords t63) 0
        rw [show win0_5.index t63 0 * win0_5.size 0 = 0 from by decide +kernel,
          show win0_5.xsize (grid0.coords t63) 0 = 1 from by decide +kernel]
        omega
      | ⟨1, _⟩ =>
        show win0_5.index t63 1 * win0_5.size 1 ≤ (i 1 : Nat)
          ∧ (i 1 : Nat) < win0_5.index t63 1 * win0_5.size 1 + win0_5.xsize (grid0.coords t63) 1
        rw [show win0_5.index t63 1 * win0_5.size 1 = 0 from by decide +kernel,
          show win0_5.xsize (grid0.coords t63) 1 = 1 from by decide +kernel]
        omega⟩

end Cert.KernelIdeal.Accumulated

end
-- ==== Proof.RefValue.lean ====
/-
  The reference's three sums are the loss of the specification.

  Read one operation at a time: the product of the two feature matrices contracted over their 128 rows, times 0.5,
  is `omega`; the reshape of a similarity array drops its unit axis; `-s · ω + log1p ω` and `-s · ω + log (1 + ω + ε)`
  are the entries `EU`, `EA`; a sum over both axes of a [4096, 4096] array from the zero is `0 +` the total.
-/
import proofs.«131492_j78125455114760_2_alg».proof.Proof.Gen.ReferenceIdeal.Read
import proofs.«131492_j78125455114760_2_alg».proof.Proof.LossSpec

noncomputable section

open scoped BigOperators

namespace Cert.ReferenceIdeal.RefValue

open Cert.ReferenceIdeal Cert.ReferenceIdeal.Read Idealize.ShloMosaic Idealize.ShloMosaic.ValueIdx Cert.Loss

/-! ## The index maps of the generated reading, at `(r, c)` -/

theorem lidx0 (r c : Fin 4096) (k : Fin 128) : lidx_main_v0 (ix2 r c) k = ix2 k r :=
  funext fun a => Fin.ext (by match a with | ⟨0, _⟩ => rfl | ⟨1, _⟩ => rfl)
theorem ridx0 (r c : Fin 4096) (k : Fin 128) : ridx_main_v0 (ix2 r c) k = ix2 k c :=
  funext fun a => Fin.ext (by match a with | ⟨0, _⟩ => rfl | ⟨1, _⟩ => rfl)
theorem lidx9 (r c : Fin 4096) (k : Fin 128) : lidx_main_v9 (ix2 r c) k = ix2 k r :=
  funext fun a => Fin.ext (by match a with | ⟨0, _⟩ => rfl | ⟨1, _⟩ => rfl)
theorem ridx9 (r c : Fin 4096) (k : Fin 128) : ridx_main_v9 (ix2 r c) k = ix2 k c :=
  funext fun a => Fin.ext (by match a with | ⟨0, _⟩ => rfl | ⟨1, _⟩ => rfl)
theorem lidx12 (r c : Fin 4096) (k : Fin 128) : lidx_main_v12 (ix2 r c) k = ix2 k r :=
  funext fun a => Fin.ext (by match a with | ⟨0, _⟩ => rfl | ⟨1, _⟩ => rfl)
theorem ridx12 (r c : Fin 4096) (k : Fin 128) : ridx_main_v12 (ix2 r c) k = ix2 k c :=
  funext fun a => Fin.ext (by match a with | ⟨0, _⟩ => rfl | ⟨1, _⟩ => rfl)

/-- Row-major position `4096·r + c` of the [4096, 4096] array is `(r, c, 0)` of the [4096, 4096, 1] one. -/
theorem idx3 (r c : Fin 4096) : idx_main_v3 (ix2 r c) = ix3 r c 0 :=
  funext fun a => Fin.ext (by
    match a with
    | ⟨0, _⟩ => show (r.val * 4096 + c.val) / 4096 = r.val; omega
    | ⟨1, _⟩ => show (r.val * 4096 + c.val) / 1 % 4096 = c.val; omega
    | ⟨2, _⟩ => rfl)
theorem idx15 (r c : Fin 4096) : idx_main_v15 (ix2 r c) = ix3 r c 0 :=
  funext fun a => Fin.ext (by
    match a with
    | ⟨0, _⟩ => show (r.val * 4096 + c.val) / 4096 = r.val; omega
    | ⟨1, _⟩ => show (r.val * 4096 + c.val) / 1 % 4096 = c.val; omega
    | ⟨2, _⟩ => rfl)
theorem idx25 (r c : Fin 4096) : idx_main_v25 (ix2 r c) = ix3 r c 0 :=
  funext fun a => Fin.ext (by
    match a with
    | ⟨0, _⟩ => show (r.val * 4096 + c.val) / 4096 = r.val; omega
    | ⟨1, _⟩ => show (r.val * 4096 + c.val) / 1 % 4096 = c.val; omega
    | ⟨2, _⟩ => rfl)

/-! ## The three entry arrays -/

theorem v7_apply (x0 : S4096x4096x1.Idx → EReal) (x3 x4 : S128x4096.Idx → EReal) (r c : Fin 4096) :
    val_main_v7 (F := Ideal) x0 x3 x4 (ix2 r c) = EU x0 x3 x4 r c := by
  rw [val_main_v7_apply, val_main_v5_apply, val_main_v6_apply, val_main_v4_apply, val_main_v3_apply, val_main_v2_apply,
    val_main_v0_apply, val_main_v1_apply, val_main_cst_apply]
  simp only [lidx0, ridx0, idx3]
  rfl

theorem v23_apply (x1 : S4096x4096x1.Idx → EReal) (x3 : S128x4096.Idx → EReal) (r c : Fin 4096) :
    val_main_v23 (F := Ideal) x1 x3 (ix2 r c) = EA x1 x3 r c := by
  rw [val_main_v23_apply, val_main_v17_apply, val_main_v22_apply, val_main_v21_apply, val_main_v19_apply,
    val_main_v16_apply, val_main_v15_apply, val_main_v11_apply, val_main_v9_apply, val_main_v10_apply,
    val_main_cst_1_apply, val_main_v18_apply, val_main_cst_3_apply, val_main_v20_apply, val_main_cst_4_apply]
  simp only [lidx9, ridx9, idx15]
  rfl

theorem v33_apply (x2 : S4096x4096x1.Idx → EReal) (x4 : S128x4096.Idx → EReal) (r c : Fin 4096) :
    val_main_v33 (F := Ideal) x2 x4 (ix2 r c) = EA x2 x4 r c := by
  rw [val_main_v33_apply, val_main_v27_apply, val_main_v32_apply, val_main_v31_apply, val_main_v29_apply,
    val_main_v26_apply, val_main_v25_apply, val_main_v14_apply, val_main_v12_apply, val_main_v13_apply,
    val_main_cst_2_apply, val_main_v28_apply, val_main_cst_6_apply, val_main_v30_apply, val_main_cst_7_apply]
  simp only [lidx12, ridx12, idx25]
  rfl

/-! ## The three sums -/

/-- The reference's first term plus 1 · (second + third), each summed from a zero, is `lossSum`. -/
theorem v53_apply (x0 x1 x2 : S4096x4096x1.Idx → EReal) (x3 x4 : S128x4096.Idx → EReal) (i : S_.Idx) :
    val_main_v53 (F := Ideal) x0 x1 x2 x3 x4 i = lossSum x0 x1 x2 x3 x4 := by
  rw [val_main_v53_apply, val_main_v8_apply, val_main_v52_apply, val_main_v35_apply, val_main_v24_apply,
    val_main_v34_apply, val_main_cst_15_apply, val_main_cst_0_apply, val_main_cst_5_apply, val_main_cst_8_apply]
  rw [sum_idx2, sum_idx2, sum_idx2]
  simp only [v7_apply, v23_apply, v33_apply]
  show (Ideal.ofBits .f32 0x00000000#32 + _) + one * ((Ideal.ofBits .f32 0x00000000#32 + _) + (Ideal.ofBits .f32 0x00000000#32 + _)) = _
  rw [Ideal.ofBits_zero_f32]
  rfl

end Cert.ReferenceIdeal.RefValue

end
-- ==== Proof.Tail.lean ====
/-
  After the region: the lines both programs end with, and the kernel's run read as a value.

  Both programs finish the same way: to the three similarity sums `K` they add 1 · (the two Frobenius norms
  `sqrt Σ (P - B)²  +  sqrt Σ (M - B)²`) and then 1 · (the two sums of squared row sums). `tail K` is that ending, written
  with the reference's own stages; the kernel's lines after the region, run on the arrays the region leaves, are the
  same operations on the same arrays, so the kernel's result is `tail` of its accumulated block read as a scalar.
  The 64 tiles' contributions add up to the reference's three sums, which closes the comparison.
-/
import proofs.«131492_j78125455114760_2_alg».proof.Proof.Accumulated
import proofs.«131492_j78125455114760_2_alg».proof.Proof.RefValue

set_option maxRecDepth 16384

noncomputable section

open scoped BigOperators
open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.ValueIdx Cert.Loss Cert.KernelIdeal.Blocks
  Cert.KernelIdeal.Accumulated

/-- The ending both programs share, from the three sums `K` and the arrays `P`, `M`, `B`. -/
def tail (K : FVec Ideal Cert.ReferenceIdeal.S_ .f32) (x3 x4 x5 : FVec Ideal Cert.ReferenceIdeal.S128x4096 .f32) :
    FVec Ideal Cert.ReferenceIdeal.S_ .f32 :=
  addf (F := Ideal) (addf (F := Ideal) K (Cert.ReferenceIdeal.Read.val_main_v54 (F := Ideal) x3 x4 x5))
    (Cert.ReferenceIdeal.Read.val_main_v56 (F := Ideal) x3 x4)

/-- The reference's result is `tail` of any `K` that is its three sums. -/
theorem ref_eq (x0 x1 x2 : FVec Ideal Cert.ReferenceIdeal.S4096x4096x1 .f32)
    (x3 x4 x5 : FVec Ideal Cert.ReferenceIdeal.S128x4096 .f32)
    (K : FVec Ideal Cert.ReferenceIdeal.S_ .f32) (hK : ∀ i, K i = lossSum x0 x1 x2 x3 x4) :
    Cert.ReferenceIdeal.Read.val_main_v57 (F := Ideal) x0 x1 x2 x3 x4 x5 = tail K x3 x4 x5 := by
  have e : Cert.ReferenceIdeal.Read.val_main_v53 (F := Ideal) x0 x1 x2 x3 x4 = K :=
    funext fun i => (Cert.ReferenceIdeal.RefValue.v53_apply x0 x1 x2 x3 x4 i).trans (hK i).symm
  unfold tail
  rw [← e]
  rfl

variable (m : (ℓ : Loc nD τ sig) → Buf (Elt Ideal) ℓ) (ρ : Dev nD → PrngReg)

/-- The 64 tiles' contributions are the reference's three sums of the argument arrays. -/
theorem sum_tiles (c : Dev nD) : ∑ t, tileOf m c t
    = lossSum (m ((c : Thread nD τ).loc main_arg0)) (m ((c : Thread nD τ).loc main_arg1)) (m ((c : Thread nD τ).loc main_arg2))
        (m ((c : Thread nD τ).loc main_arg3)) (m ((c : Thread nD τ).loc main_arg4)) := by
  unfold tileOf
  exact (TileSum.sum_counter (N := cfg0.N) (A := 8) (B := 8) ((by decide : 8 * 8 = 64).trans N_0.symm) _ row col
    (fun _ => rfl) (fun _ => rfl)).trans (sum_contrib _ _ _ _ _)

/-- The kernel's three sums: its accumulated 1 × 1 block read as a scalar. -/
def sums (c : Dev nD) : FVec Ideal Cert.ReferenceIdeal.S_ .f32 :=
  shapeCast S_ (result m c) shapeCasts_S1x1_S_

theorem sums_apply (c : Dev nD) (i : Cert.ReferenceIdeal.S_.Idx) :
    sums m c i = lossSum (m ((c : Thread nD τ).loc main_arg0)) (m ((c : Thread nD τ).loc main_arg1))
      (m ((c : Thread nD τ).loc main_arg2)) (m ((c : Thread nD τ).loc main_arg3)) (m ((c : Thread nD τ).loc main_arg4)) :=
  sum_tiles m c

/-- The kernel's result as a value. -/
def value (c : Dev nD) : Buf (Elt Ideal) ((c : Thread nD τ).loc main_v24) :=
  tail (sums m c) (m ((c : Thread nD τ).loc main_arg3)) (m ((c : Thread nD τ).loc main_arg4)) (m ((c : Thread nD τ).loc main_arg5))

set_option maxHeartbeats 2000000 in
/-- The lines after the region, run on what the region leaves, give `value`. -/
theorem tail_eq (c : Dev nD) : Pipeline.afterTail₀ cfgs (dats m) 0 (V0 m) [hostOps1] c main_v24 = value m c := by
  have e3 : Pipeline.withArrays (cfgs 0).spec c (V0 m c) (fun w => (dats m 0 c).arrAt w (cfgs 0).N) (Proc.devRef .tc main_arg3)
      = m ((c : Thread nD τ).loc main_arg3) :=
    (Pipeline.withArrays_arr spec0 launch0.win.arr_inj c _ _ 0).trans
      (((dats m 0 c).arrAt_in 0 rfl _).trans ((A_eq m c 0).trans (V_main_arg3 m c)))
  have e4 : Pipeline.withArrays (cfgs 0).spec c (V0 m c) (fun w => (dats m 0 c).arrAt w (cfgs 0).N) (Proc.devRef .tc main_arg4)
      = m ((c : Thread nD τ).loc main_arg4) :=
    (Pipeline.withArrays_arr spec0 launch0.win.arr_inj c _ _ 1).trans
      (((dats m 0 c).arrAt_in 1 rfl _).trans ((A_eq m c 1).trans (V_main_arg4 m c)))
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  have ev : Pipeline.withArrays (cfgs 0).spec c (V0 m c) (fun w => (dats m 0 c).arrAt w (cfgs 0).N) (Proc.devRef .tc main_v3)
      = result m c :=
    (Pipeline.withArrays_arr spec0 launch0.win.arr_inj c _ _ 5).trans (final m c)
  unfold Pipeline.afterTail₀
  simp only [hostOps1, List.flatten_cons, List.flatten_nil, List.append_nil, List.cons_append, List.nil_append]
  after_results_simp
  rw [e3, e4, e5, ev]
  rfl

/-- The kernel's run: every weakly fair execution ends with the result at `value` and the arguments unchanged. -/
theorem run : θ_run defs (onTc (τ := τ) (main (F := Ideal))) ⟨m, fun _ => 0, ρ⟩ fun r => ∀ c : Dev nD,
      r.2.mem ((c.tc : Thread nD τ).loc main_v24) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Tail

end
-- ==== Proof.lean ====
/-
  The loss kernel against its reference: the proof of `Cert.Claim`.

  The kernel streams the three 4096 × 4096 similarity matrices in 8 × 8 tiles of 512 × 512. At tile `(i, j)` it forms
  the three half inner-product blocks `ω = ½ · XᵀY` of the columns `512·i …` and `512·j …` of the feature matrices, adds
  up the entries `-s · ω + log1p ω` and `-s · ω + log (1 + ω + ε)` of the tile, and adds the tile's contribution to a
  scalar accumulator that the first point resets; the lines after the region add the norm and row-sum terms. The
  reference forms the same entries over the whole matrices and sums them at once.

  At the ideal values both are the same extended real: a sum over all entries is the sum over the tiles of the tiles'
  sums, and the running total over the 64 points is the sum of the 64 contributions — commutativity and associativity
  of `+`, and `1 · x = x`, which hold at the infinities too, so the precondition is not used. The ending after the three
  sums is literally the same operations on the same arrays in both programs.

  The frames of the two kernel programs are the generated ones; the reference's frame is its generated run with the
  result dropped; nothing was rewritten by the idealization, so `preserves` is `True`.
-/
import proofs.«131492_j78125455114760_2_alg».proof.Defs
import proofs.«131492_j78125455114760_2_alg».proof.Proof.Gen.Kernel
import proofs.«131492_j78125455114760_2_alg».proof.Proof.Gen.Kernel.Skeleton
import proofs.«131492_j78125455114760_2_alg».proof.Proof.Gen.Kernel.Launch
import proofs.«131492_j78125455114760_2_alg».proof.Proof.Gen.Kernel.Points
import proofs.«131492_j78125455114760_2_alg».proof.Proof.Gen.Kernel.Frame
import proofs.«131492_j78125455114760_2_alg».proof.Proof.Gen.KernelIdeal
import proofs.«131492_j78125455114760_2_alg».proof.Proof.Gen.KernelIdeal.Skeleton
import proofs.«131492_j78125455114760_2_alg».proof.Proof.Gen.KernelIdeal.Launch
import proofs.«131492_j78125455114760_2_alg».proof.Proof.Gen.KernelIdeal.Points
import proofs.«131492_j78125455114760_2_alg».proof.Proof.Gen.KernelIdeal.Frame
import proofs.«131492_j78125455114760_2_alg».proof.Proof.Gen.ReferenceIdeal
import proofs.«131492_j78125455114760_2_alg».proof.Proof.Gen.Pre_finite_inputs
import proofs.«131492_j78125455114760_2_alg».proof.Proof.Gen.ReferenceIdeal.Run
import proofs.«131492_j78125455114760_2_alg».proof.Proof.Gen.ReferenceIdeal.Read
import proofs.«131492_j78125455114760_2_alg».proof.Proof.Tail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel ends at the shared ending of its 64 accumulated tile contributions, the reference
    at the shared ending of its three sums, of arguments that agree; the contributions add up to those sums. -/
theorem algebraic : Cert.algebraic_KernelIdeal_ReferenceIdeal := by
  intro m ρ m' ρ' _ hagree
  refine ⟨fun c => Cert.KernelIdeal.Tail.value m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v57_eq _ _ _ _ _ _).trans
    (Cert.KernelIdeal.Tail.ref_eq _ _ _ _ _ _ _ (Cert.KernelIdeal.Tail.sums_apply m c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
